-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32 : Shape := ⟨2, ![131072, 32]⟩
abbrev S32x128 : Shape := ⟨2, ![32, 128]⟩
abbrev S1x128 : Shape := ⟨2, ![1, 128]⟩
abbrev S128x16 : Shape := ⟨2, ![128, 16]⟩
abbrev S1x16 : Shape := ⟨2, ![1, 16]⟩
abbrev S_ : Shape := ⟨0, ![]⟩
abbrev S28x16 : Shape := ⟨2, ![28, 16]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S1x128 : S_.BroadcastsInDim S1x128 (![] : Fin 0 → Fin S1x128.rank)
  reducesTo_S1x128_S_d0_1 : S1x128.ReducesTo [0, 1] S_
  bcast_S_S128x16 : S_.BroadcastsInDim S128x16 (![] : Fin 0 → Fin S128x16.rank)
  reducesTo_S128x16_S_d0_1 : S128x16.ReducesTo [0, 1] S_
  bcast_S_S1x16 : S_.BroadcastsInDim S1x16 (![] : Fin 0 → Fin S1x16.rank)
  reducesTo_S1x16_S_d0_1 : S1x16.ReducesTo [0, 1] S_
  slices_S128x16_S28x16_100_0 : S128x16.Slices ![100, 0] S28x16
  bcast_S_S28x16 : S_.BroadcastsInDim S28x16 (![] : Fin 0 → Fin S28x16.rank)
  reducesTo_S28x16_S_d0_1 : S28x16.ReducesTo [0, 1] S_

variable [Facts]

def fn_part1 {F : FTy → Type} [FloatOps F] (main_arg3 : FVec F S128x16 .f32) (main_arg4 : FVec F S1x16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S28x16 .f32 := (extractStridedSlice S28x16 ![100, 0] · slices_S128x16_S28x16_100_0) main_arg3
  let main_cst_8 : FVec F S_ .f32 := constant S_ .f32 0x00000000#32
  let main_v25 : FVec F S28x16 .f32 := broadcastInDim S28x16 ![] bcast_S_S28x16 main_cst_8
  let main_v26 : IVec S28x16 1 := cmpf .oeq main_v24 main_v25
  let main_c_9 : IVec S_ 1 := constantI S_ 1 1#1
  let main_v27 : IVec S_ 1 := (fun x v => Host.reduce IntOp.andi x v reducesTo_S28x16_S_d0_1 h_S_) main_v26 main_c_9
  let main_v28 : IVec S_ 1 := andi main_v23 main_v27
  main_v28

def fn {F : FTy → Type} [FloatOps F] (main_arg0 : FVec F S131072x32 .f32) (main_arg1 : FVec F S32x128 .f32) (main_arg2 : FVec F S1x128 .f32) (main_arg3 : FVec F S128x16 .f32) (main_arg4 : FVec F S1x16 .f32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x16 .f32 := Host.absf main_arg3
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg3 main_arg4 main_v13 main_v16
-- ==== Kernel.lean ====
abbrev S131072x32 : Shape := ⟨2, ![131072, 32]⟩
abbrev S32x128 : Shape := ⟨2, ![32, 128]⟩
abbrev S1x128 : Shape := ⟨2, ![1, 128]⟩
abbrev S128x16 : Shape := ⟨2, ![128, 16]⟩
abbrev S1x16 : Shape := ⟨2, ![1, 16]⟩
abbrev S32x131072 : Shape := ⟨2, ![32, 131072]⟩
abbrev S128x32 : Shape := ⟨2, ![128, 32]⟩
abbrev S112x32 : Shape := ⟨2, ![112, 32]⟩
abbrev S16x128 : Shape := ⟨2, ![16, 128]⟩
abbrev S16x112 : Shape := ⟨2, ![16, 112]⟩
abbrev S128x1 : Shape := ⟨2, ![128, 1]⟩
abbrev S112x1 : Shape := ⟨2, ![112, 1]⟩
abbrev S16x1 : Shape := ⟨2, ![16, 1]⟩
abbrev S16x131072 : Shape := ⟨2, ![16, 131072]⟩
abbrev S32x32768 : Shape := ⟨2, ![32, 32768]⟩
abbrev S16x32768 : Shape := ⟨2, ![16, 32768]⟩
abbrev S112x32768 : Shape := ⟨2, ![112, 32768]⟩
abbrev S131072x16 : Shape := ⟨2, ![131072, 16]⟩

abbrev nBuf : Space → Nat
  | .hbm => 15
  | .vmem => 8
  | .smem => 0
  | _ => 0

abbrev bufTy : (tb : Table) → Fin (tcTables nBuf tb) → BufTy
  | .hbm, ⟨0, _⟩ => ⟨S131072x32, .f32⟩
  | .hbm, ⟨1, _⟩ => ⟨S32x128, .f32⟩
  | .hbm, ⟨2, _⟩ => ⟨S1x128, .f32⟩
  | .hbm, ⟨3, _⟩ => ⟨S128x16, .f32⟩
  | .hbm, ⟨4, _⟩ => ⟨S1x16, .f32⟩
  | .hbm, ⟨5, _⟩ => ⟨S32x131072, .f32⟩
  | .hbm, ⟨6, _⟩ => ⟨S128x32, .f32⟩
  | .hbm, ⟨7, _⟩ => ⟨S112x32, .f32⟩
  | .hbm, ⟨8, _⟩ => ⟨S16x128, .f32⟩
  | .hbm, ⟨9, _⟩ => ⟨S16x112, .f32⟩
  | .hbm, ⟨10, _⟩ => ⟨S128x1, .f32⟩
  | .hbm, ⟨11, _⟩ => ⟨S112x1, .f32⟩
  | .hbm, ⟨12, _⟩ => ⟨S16x1, .f32⟩
  | .hbm, ⟨13, _⟩ => ⟨S16x131072, .f32⟩
  | .hbm, ⟨14, _⟩ => ⟨S131072x16, .f32⟩
  | .local _ .vmem, ⟨0, _⟩ => ⟨S32x32768, .f32⟩
  | .local _ .vmem, ⟨1, _⟩ => ⟨S32x32768, .f32⟩
  | .local _ .vmem, ⟨2, _⟩ => ⟨S112x32, .f32⟩
  | .local _ .vmem, ⟨3, _⟩ => ⟨S112x1, .f32⟩
  | .local _ .vmem, ⟨4, _⟩ => ⟨S16x112, .f32⟩
  | .local _ .vmem, ⟨5, _⟩ => ⟨S16x1, .f32⟩
  | .local _ .vmem, ⟨6, _⟩ => ⟨S16x32768, .f32⟩
  | .local _ .vmem, ⟨7, _⟩ => ⟨S16x32768, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S112x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S112x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S131072x32_S32x131072_1_0 : S131072x32.Transposes [1, 0] S32x131072
  transposes_S32x128_S128x32_1_0 : S32x128.Transposes [1, 0] S128x32
  slices_S128x32_S112x32_0_0 : S128x32.Slices ![0, 0] S112x32
  transposes_S128x16_S16x128_1_0 : S128x16.Transposes [1, 0] S16x128
  slices_S16x128_S16x112_0_0 : S16x128.Slices ![0, 0] S16x112
  transposes_S1x128_S128x1_1_0 : S1x128.Transposes [1, 0] S128x1
  slices_S128x1_S112x1_0_0 : S128x1.Slices ![0, 0] S112x1
  transposes_S1x16_S16x1_1_0 : S1x16.Transposes [1, 0] S16x1
  inb_S112x32_S112x32_0_0 : ∀ a, (![0, 0] : Fin 2 → Nat) a + S112x32.size a ≤ S112x32.size a
  h_S112x32 : 0 < S112x32.numel
  shapeCasts_S112x32_S112x32 : S112x32.ShapeCasts S112x32
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  inb_S112x1_S112x1_0_0 : ∀ a, (![0, 0] : Fin 2 → Nat) a + S112x1.size a ≤ S112x1.size a
  h_S112x1 : 0 < S112x1.numel
  shapeCasts_S112x1_S112x1 : S112x1.ShapeCasts S112x1
  broadcasts_S112x1_S112x32768 : S112x1.Broadcasts S112x32768
  inb_S16x112_S16x112_0_0 : ∀ a, (![0, 0] : Fin 2 → Nat) a + S16x112.size a ≤ S16x112.size a
  h_S16x112 : 0 < S16x112.numel
  shapeCasts_S16x112_S16x112 : S16x112.ShapeCasts S16x112
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x32768 : S16x1.Broadcasts S16x32768
  inb_S16x32768_S16x32768_0_0 : ∀ a, (![0, 0] : Fin 2 → Nat) a + S16x32768.size a ≤ S16x32768.size a
  h_S16x32768 : 0 < S16x32768.numel
  transposes_S16x131072_S131072x16_1_0 : S16x131072.Transposes [1, 0] S131072x16
  dot_S112x32_S32x32768_S112x32768_1_0_0_1_n_n_wf : DotDims.WF S112x32 S32x32768 S112x32768 [1] [0] [0] [1] [] []
  dot_S16x112_S112x32768_S16x32768_1_0_0_1_n_n_wf : DotDims.WF S16x112 S112x32768 S16x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32768.size a ≤ S32x131072.size a
  hwx0_0 : ∀ i : grid0.Coords, EltTy.bits .f32 = 32 ∨ (Rect.block (s := S32x131072) S32x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S112x32.size a ≤ S112x32.size a
  hwx0_1 : ∀ i : grid0.Coords, EltTy.bits .f32 = 32 ∨ (Rect.block (s := S112x32) S112x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S112x1.size a ≤ S112x1.size a
  hwx0_2 : ∀ i : grid0.Coords, EltTy.bits .f32 = 32 ∨ (Rect.block (s := S112x1) S112x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x112.size a ≤ S16x112.size a
  hwx0_3 : ∀ i : grid0.Coords, EltTy.bits .f32 = 32 ∨ (Rect.block (s := S16x112) S16x112.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x32768.size a ≤ S16x131072.size a
  hwx0_5 : ∀ i : grid0.Coords, EltTy.bits .f32 = 32 ∨ (Rect.block (s := S16x131072) S16x32768.size (cc0_transform_5 i) (hinb0_5 i)).WholeWords (EltTy.packing .f32)

variable [Facts₀]

def dot_S112x32_S32x32768_S112x32768_1_0_0_1_n_n : DotDims S112x32 S32x32768 S112x32768 where
  lhsContracting := [1]
  rhsContracting := [0]
  lhsNonContracting := [0]
  rhsNonContracting := [1]
  lhsBatch := []
  rhsBatch := []
  wf := dot_S112x32_S32x32768_S112x32768_1_0_0_1_n_n_wf
def dot_S16x112_S112x32768_S16x32768_1_0_0_1_n_n : DotDims S16x112 S112x32768 S16x32768 where
  lhsContracting := [1]
  rhsContracting := [0]
  lhsNonContracting := [0]
  rhsNonContracting := [1]
  lhsBatch := []
  rhsBatch := []
  wf := dot_S16x112_S112x32768_S16x32768_1_0_0_1_n_n_wf

abbrev win0_0 : Pipeline.Window sig grid0 :=
  Pipeline.Window.ofSpec (Memref.whole main_v0) S32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S112x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S112x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x112.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S16x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x32 : Shape := ⟨2, ![131072, 32]⟩
abbrev S32x128 : Shape := ⟨2, ![32, 128]⟩
abbrev S1x128 : Shape := ⟨2, ![1, 128]⟩
abbrev S128x16 : Shape := ⟨2, ![128, 16]⟩
abbrev S1x16 : Shape := ⟨2, ![1, 16]⟩
abbrev S131072x16 : Shape := ⟨2, ![131072, 16]⟩
abbrev S1024x32 : Shape := ⟨2, ![1024, 32]⟩
abbrev S1024x16 : Shape := ⟨2, ![1024, 16]⟩
abbrev S1024x128 : Shape := ⟨2, ![1024, 128]⟩

abbrev nBuf : Space → Nat
  | .hbm => 6
  | .vmem => 8
  | .smem => 0
  | _ => 0

abbrev bufTy : (tb : Table) → Fin (tcTables nBuf tb) → BufTy
  | .hbm, ⟨0, _⟩ => ⟨S131072x32, .f32⟩
  | .hbm, ⟨1, _⟩ => ⟨S32x128, .f32⟩
  | .hbm, ⟨2, _⟩ => ⟨S1x128, .f32⟩
  | .hbm, ⟨3, _⟩ => ⟨S128x16, .f32⟩
  | .hbm, ⟨4, _⟩ => ⟨S1x16, .f32⟩
  | .hbm, ⟨5, _⟩ => ⟨S131072x16, .f32⟩
  | .local _ .vmem, ⟨0, _⟩ => ⟨S1024x32, .f32⟩
  | .local _ .vmem, ⟨1, _⟩ => ⟨S1024x32, .f32⟩
  | .local _ .vmem, ⟨2, _⟩ => ⟨S32x128, .f32⟩
  | .local _ .vmem, ⟨3, _⟩ => ⟨S1x128, .f32⟩
  | .local _ .vmem, ⟨4, _⟩ => ⟨S128x16, .f32⟩
  | .local _ .vmem, ⟨5, _⟩ => ⟨S1x16, .f32⟩
  | .local _ .vmem, ⟨6, _⟩ => ⟨S1024x16, .f32⟩
  | .local _ .vmem, ⟨7, _⟩ => ⟨S1024x16, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1024x32_S1024x32_0_0 : ∀ a, (![0, 0] : Fin 2 → Nat) a + S1024x32.size a ≤ S1024x32.size a
  h_S1024x32 : 0 < S1024x32.numel
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  broadcasts_S1x128_S1024x128 : S1x128.Broadcasts S1024x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  broadcasts_S1x16_S1024x16 : S1x16.Broadcasts S1024x16
  inb_S1024x16_S1024x16_0_0 : ∀ a, (![0, 0] : Fin 2 → Nat) a + S1024x16.size a ≤ S1024x16.size a
  h_S1024x16 : 0 < S1024x16.numel
  dot_S1024x32_S32x128_S1024x128_1_0_0_1_n_n_wf : DotDims.WF S1024x32 S32x128 S1024x128 [1] [0] [0] [1] [] []
  dot_S1024x128_S128x16_S1024x16_1_0_0_1_n_n_wf : DotDims.WF S1024x128 S128x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S131072x32.size a
  hwx0_0 : ∀ i : grid0.Coords, EltTy.bits .f32 = 32 ∨ (Rect.block (s := S131072x32) S1024x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x16.size a ≤ S131072x16.size a
  hwx0_5 : ∀ i : grid0.Coords, EltTy.bits .f32 = 32 ∨ (Rect.block (s := S131072x16) S1024x16.size (cc0_transform_5 i) (hinb0_5 i)).WholeWords (EltTy.packing .f32)

variable [Facts₀]

def dot_S1024x32_S32x128_S1024x128_1_0_0_1_n_n : DotDims S1024x32 S32x128 S1024x128 where
  lhsContracting := [1]
  rhsContracting := [0]
  lhsNonContracting := [0]
  rhsNonContracting := [1]
  lhsBatch := []
  rhsBatch := []
  wf := dot_S1024x32_S32x128_S1024x128_1_0_0_1_n_n_wf
def dot_S1024x128_S128x16_S1024x16_1_0_0_1_n_n : DotDims S1024x128 S128x16 S1024x16 where
  lhsContracting := [1]
  rhsContracting := [0]
  lhsNonContracting := [0]
  rhsNonContracting := [1]
  lhsBatch := []
  rhsBatch := []
  wf := dot_S1024x128_S128x16_S1024x16_1_0_0_1_n_n_wf

abbrev win0_0 : Pipeline.Window sig grid0 :=
  Pipeline.Window.ofSpec (Memref.whole main_arg0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.MlpSpec.lean ====
/-
  The two-layer perceptron as one function of its five argument arrays, index by index, over the extended reals.

  For a batch row `r` and an output column `o`,
    out (r, o) = (∑ j < 128, relu ((∑ k < 32, x (r, k) · w1 (k, j)) + b1 (0, j)) · w2 (j, o)) + b2 (0, o),
  where `relu a = max a 0`. When the rows `j ≥ 112` of `w2` are zero, the hidden units `j ≥ 112` contribute
  `relu (…) · 0 = 0`, so the sum over the 128 hidden units is the sum over the first 112 (`sum_hidden_trim`), and a
  product may be read with its factors in either order (`mul_comm`): that is the form a transposed evaluation
  `w2ᵀ · relu (w1ᵀ · xᵀ + b1ᵀ) + b2ᵀ` restricted to 112 hidden units computes (`outT`, `outT_eq_out`).
-/
import Idealize.ShloMosaic.PureOps.Ideal
import Idealize.ShloMosaic.PureOps.Ideal.Laws
import Idealize.ShloMosaic.Lib.ValueIdx

noncomputable section

namespace Cert.MlpSpec

open Idealize.ShloMosaic Idealize.ShloMosaic.ValueIdx

/-- The rectifier: the larger of a value and the value of the zero word. -/
def relu (a : EReal) : EReal := max a (Ideal.ofBits .f32 0x00000000#32)

/-- The first 112 of the 128 hidden units. -/
abbrev up (j : Fin 112) : Fin 128 := Fin.castLE (by decide) j

variable (x : (⟨2, ![131072, 32]⟩ : Shape).Idx → EReal) (w1 : (⟨2, ![32, 128]⟩ : Shape).Idx → EReal)
  (b1 : (⟨2, ![1, 128]⟩ : Shape).Idx → EReal) (w2 : (⟨2, ![128, 16]⟩ : Shape).Idx → EReal)
  (b2 : (⟨2, ![1, 16]⟩ : Shape).Idx → EReal)

/-- Hidden unit `j` of batch row `r`: the rectified affine form of the row. -/
def hid (r : Fin 131072) (j : Fin 128) : EReal :=
  relu ((∑ k : Fin 32, x (ix2 r k) * w1 (ix2 k j)) + b1 (ix2 (0 : Fin 1) j))

/-- The network's output, all 128 hidden units summed. -/
def out : (⟨2, ![131072, 16]⟩ : Shape).Idx → EReal := fun i =>
  (∑ j : Fin 128, hid x w1 b1 (i 0) j * w2 (ix2 j (i 1))) + b2 (ix2 (0 : Fin 1) (i 1))

/-- The transposed evaluation over the first 112 hidden units, every product with the weight on the left: at
    `(o, r)` it is `(∑ j < 112, w2 (j, o) · relu ((∑ k, w1 (k, j) · x (r, k)) + b1 (0, j))) + b2 (0, o)`. -/
def outT : (⟨2, ![16, 131072]⟩ : Shape).Idx → EReal := fun i =>
  (∑ j : Fin 112, w2 (ix2 (up j) (i 0)) * relu ((∑ k : Fin 32, w1 (ix2 k (up j)) * x (ix2 (i 1) k)) + b1 (ix2 (0 : Fin 1) (up j))))
    + b2 (ix2 (0 : Fin 1) (i 0))

/-- The transposed evaluation at output row `o` and batch lane `r`, written out. -/
theorem outT_apply (o : Fin 16) (r : Fin 131072) :
    outT x w1 b1 w2 b2 (ix2 o r)
      = (∑ j : Fin 112, w2 (ix2 (up j) o) * relu ((∑ k : Fin 32, w1 (ix2 k (up j)) * x (ix2 r k)) + b1 (ix2 (0 : Fin 1) (up j))))
        + b2 (ix2 (0 : Fin 1) o) := rfl

/-- A sum over the 128 hidden units whose terms vanish from unit 112 on is the sum over the first 112. -/
theorem sum_hidden_trim (f : Fin 128 → EReal) (h : ∀ j : Fin 128, 112 ≤ j.val → f j = 0) :
    ∑ j : Fin 128, f j = ∑ j : Fin 112, f (up j) := by
  have e := Fin.sum_univ_add (M := EReal) (a := 112) (b := 16) f
  have z : ∑ j : Fin 16, f (Fin.natAdd 112 j) = 0 :=
    Finset.sum_eq_zero (fun j _ => h _ (Nat.le_add_right 112 j.val))
  rw [e, z, add_zero]
  rfl

/-- With the rows of `w2` from 112 on equal to zero, the transposed evaluation over 112 hidden units at `(o, r)` is
    the network's output at `(r, o)`. -/
theorem outT_eq_out (hw : ∀ j : Fin 128, 112 ≤ j.val → ∀ o : Fin 16, w2 (ix2 j o) = 0) (r : Fin 131072) (o : Fin 16) :
    outT x w1 b1 w2 b2 (ix2 o r) = out x w1 b1 w2 b2 (ix2 r o) := by
  unfold outT out
  rw [sum_hidden_trim (fun j => hid x w1 b1 r j * w2 (ix2 j o)) (fun j hj => by rw [hw j hj o, mul_zero])]
  refine congrArg (· + b2 (ix2 (0 : Fin 1) o)) (Finset.sum_congr rfl fun j _ => ?_)
  unfold hid
  rw [mul_comm]
  refine congrArg (fun s => relu (s + b1 (ix2 (0 : Fin 1) (up j))) * w2 (ix2 (up j) o)) (Finset.sum_congr rfl fun k _ => ?_)
  exact mul_comm _ _

end Cert.MlpSpec

end
-- ==== Proof.PaddedRows.lean ====
/-
  What the precondition says of the second-layer weights: the rows of `w2` from 100 on are zero.

  The precondition is a conjunction of five finiteness tests and one more test, `all (w2[100:, :] == 0)`: the rows
  100 … 127 of the [128, 16] array cut out, compared entry by entry with zero, and the comparisons reduced by `and`.
  A conjunction that is 1 has both conjuncts 1; a reduction by `and` over all axes that is 1 had a 1 at every entry;
  and on the extended reals the comparison `==` is 1 exactly when its operands are equal.
-/
import proofs.«115793_g2000702438483467_pallasbulk_711_39_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.ValueLayout
import Idealize.ShloMosaic.Lib.Pipeline.Value

noncomputable section

namespace Cert.PaddedRows

open Idealize.ShloMosaic Idealize.ShloMosaic.ValueIdx Cert.Pre_finite_inputs

/-- The result of a reduction over all axes has one index. -/
instance : Subsingleton S_.Idx := ⟨fun a b => funext fun d => d.elim0⟩

/-- On the extended reals the comparison `==` answers 1 only for equal operands. -/
theorem eq_of_cmp_oeq (x y : EReal) (h : Ideal.cmp .oeq x y = 1#1) : x = y := by
  unfold Ideal.cmp at h
  by_contra hne
  simp [hne] at h

variable [Cert.Pre_finite_inputs.Facts]

/-- Under the precondition every entry of `w2` in a row from 100 on is zero. -/
theorem padded_rows_zero (a0 : FVec Ideal S131072x32 .f32) (a1 : FVec Ideal S32x128 .f32) (a2 : FVec Ideal S1x128 .f32)
    (a3 : FVec Ideal S128x16 .f32) (a4 : FVec Ideal S1x16 .f32)
    (h : Cert.Pre_finite_inputs.fn (F := Ideal) a0 a1 a2 a3 a4 = fun _ => 1#1)
    (j : Fin 128) (hj : 100 ≤ j.val) (o : Fin 16) : a3 (ix2 j o) = 0 := by
  have e := congrFun h ix0
  unfold Cert.Pre_finite_inputs.fn Cert.Pre_finite_inputs.fn_part1 at e
  dsimp only at e
  have e2 := (IntOp.andi_eq_one.1 e).2
  have e3 := Host.reduce_andi_all _ _ _ _ _ e2 (ix2 (⟨j.val - 100, by have := j.isLt; omega⟩ : Fin 28) o)
  have e4 := eq_of_cmp_oeq _ _ e3
  rw [slice2_axis0_apply 100 a3 Facts.slices_S128x16_S28x16_100_0 _ o j (by show j.val = 100 + (j.val - 100); omega)] at e4
  exact e4.trans Ideal.ofBits_zero_f32

end Cert.PaddedRows

end
-- ==== Proof.LibPlainDot.lean ====
/-
  A plain matrix product read at an index, at the ideal instance.

  For the dimension numbers of an `M × K` by `K × N` product (contract the left operand's second axis with the right
  operand's first), a kernel's matrix product into a zero accumulator and the host's `dot_general` are both, at the output
  index `(r, c)`, the sum over `k : Fin K` of `lhs (r, k) * rhs (k, c)`.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The contraction shape of a plain product has one axis, of extent `K`. -/
theorem plain_contr_rank : (DotDims.plain M K N).contr.rank = 1 := rfl
theorem plain_contr_size : (DotDims.plain M K N).contr.size ⟨0, by rw [plain_contr_rank]; exact Nat.one_pos⟩ = K := rfl

/-- The operand indices of a plain product at the output index `j` and the contraction coordinate `k`. -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- A kernel's plain product into the zero accumulator, at an index. -/
theorem plain_matmul_apply (prec : Option ContractPrecision) (lhs : FVec Ideal ⟨2, ![M, K]⟩ φ₁) (rhs : FVec Ideal ⟨2, ![K, N]⟩ φ₂)
    (j : (⟨2, ![M, N]⟩ : Shape).Idx) :
    FloatOps.matmul (DotDims.plain M K N) prec lhs rhs (constant ⟨2, ![M, N]⟩ .f32 0x00000000#32) j
      = ∑ k : Fin K, lhs (ix2 (j 0) k) * rhs (ix2 k (j 1)) := by
  rw [Ideal.matmul_constant_zero_apply, ← Equiv.sum_comp (contrEquiv1 (DotDims.plain M K N) K rfl rfl).symm]
  exact Finset.sum_congr rfl fun k _ => by rw [plain_lhsIdx, plain_rhsIdx]; rfl

/-- The host's plain product, at an index. -/
theorem plain_dotGeneral_apply (prec : Option ContractPrecision) (sched : HostSchedule) (lhs : FVec Ideal ⟨2, ![M, K]⟩ φ₁)
    (rhs : FVec Ideal ⟨2, ![K, N]⟩ φ₂) (j : (⟨2, ![M, N]⟩ : Shape).Idx) :
    FloatOps.dotGeneral (DotDims.plain M K N) prec sched lhs rhs j
      = ∑ k : Fin K, lhs (ix2 (j 0) k) * rhs (ix2 k (j 1)) := by
  rw [Ideal.dotGeneral_apply, ← Equiv.sum_comp (contrEquiv1 (DotDims.plain M K N) K rfl rfl).symm]
  exact Finset.sum_congr rfl fun k _ => by rw [plain_lhsIdx, plain_rhsIdx]; rfl

end Cert.LibPlainDot

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.KernelPayload.lean ====
/-
  The transposed kernel's body at an index. The body multiplies the [112, 32] block of first-layer weights by the
  [32, 32768] block of transposed inputs, adds the [112, 1] bias column along the lanes, rectifies, multiplies the
  [16, 112] block of second-layer weights by the result and adds the [16, 1] bias column. Read at output row `o` and
  lane `n` this is
    (∑ j < 112, a3 (o, j) · relu ((∑ k < 32, a1 (j, k) · a0 (k, n)) + a2 (j, 0))) + a4 (o, 0):
  each matrix product into a zero accumulator is the plain sum over its contracted axis, the column broadcasts read the
  column's entry of the row, and the rest is pointwise.
-/
import proofs.«115793_g2000702438483467_pallasbulk_711_39_alg».proof.Proof.Gen.KernelIdeal.Skeleton
import proofs.«115793_g2000702438483467_pallasbulk_711_39_alg».proof.Proof.LibPlainDot
import proofs.«115793_g2000702438483467_pallasbulk_711_39_alg».proof.Proof.LibColumnBroadcast
import proofs.«115793_g2000702438483467_pallasbulk_711_39_alg».proof.Proof.MlpSpec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx Cert.MlpSpec

/-- The two matrix products of the body have the dimension numbers of a plain product. -/
theorem dot1_plain : dot_S112x32_S32x32768_S112x32768_1_0_0_1_n_n = DotDims.plain 112 32 32768 := rfl
theorem dot2_plain : dot_S16x112_S112x32768_S16x32768_1_0_0_1_n_n = DotDims.plain 16 112 32768 := rfl

/-- The hidden block of the body at hidden unit `j` and lane `n`. -/
theorem hidden_apply (a1 : Vec Ideal S112x32 .f32) (a0 : Vec Ideal S32x32768 .f32) (a2 : Vec Ideal S112x1 .f32)
    (j : Fin 112) (n : Fin 32768) :
    (maximumf (addf (matmul (φ₁ := .f32) (φ₂ := .f32) dot_S112x32_S32x32768_S112x32768_1_0_0_1_n_n none a1 a0 (constant (F := Ideal) S112x32768 .f32 0x00000000#32))
        (broadcastTo S112x32768 a2 Facts₀.broadcasts_S112x1_S112x32768))
      (broadcast S112x32768 (Scalar.ofBits (F := Ideal) .f32 0x00000000#32)) : FVec Ideal S112x32768 .f32) (ix2 j n)
    = relu ((∑ k : Fin 32, a1 (ix2 j k) * a0 (ix2 k n)) + a2 (ix2 j (0 : Fin 1))) := by
  rw [maximumf_apply, addf_apply, broadcast_apply, Cert.ColumnBroadcast.broadcastTo_a1_ab_apply, dot1_plain]
  refine congrArg (fun s => max (s + a2 (ix2 j (0 : Fin 1))) _) ?_
  exact Cert.LibPlainDot.plain_matmul_apply (M := 112) (K := 32) (N := 32768) none a1 a0 (ix2 j n)

/-- The body's stored value at output row `o` and lane `n`. -/
theorem pay_apply (a1 : Vec Ideal S112x32 .f32) (a0 : Vec Ideal S32x32768 .f32) (a2 : Vec Ideal S112x1 .f32)
    (a3 : Vec Ideal S16x112 .f32) (a4 : Vec Ideal S16x1 .f32) (o : Fin 16) (n : Fin 32768) :
    k0_pay1 a1 a0 a2 a3 a4 (ix2 o n)
      = (∑ j : Fin 112, a3 (ix2 o j) * relu ((∑ k : Fin 32, a1 (ix2 j k) * a0 (ix2 k n)) + a2 (ix2 j (0 : Fin 1))))
        + a4 (ix2 o (0 : Fin 1)) := by
  unfold k0_pay1
  simp only [shapeCast_self]
  rw [addf_apply, Cert.ColumnBroadcast.broadcastTo_a1_ab_apply, dot2_plain]
  refine congrArg (· + a4 (ix2 o (0 : Fin 1))) ?_
  refine (Cert.LibPlainDot.plain_matmul_apply (M := 16) (K := 112) (N := 32768) none a3 _ (ix2 o n)).trans ?_
  exact Finset.sum_congr rfl fun j _ => congrArg (a3 (ix2 o j) * ·) (hidden_apply a1 a0 a2 j n)

end Cert.KernelIdeal.Hand

end
-- ==== Proof.KernelInputs.lean ====
/-
  What the transposed kernel's launch finds in its five input windows, in terms of the argument arrays.

  Before the launch the host transposes `x` to [32, 131072], transposes `w1` and keeps its first 112 rows, transposes `w2`
  and keeps its first 112 columns, transposes `b1` to a column and keeps its first 112 entries, and transposes `b2` to a
  column. The grid has four points; point `t` reads the lanes `32768 t … 32768 t + 32767` of the transposed input
  and the whole of every other operand. So, with `up j` the hidden unit `j < 112` among the 128,
    block 0 at (k, n) is x (32768 t + n, k),     block 1 at (j, k) is w1 (k, up j),
    block 2 at (j, 0) is b1 (0, up j),           block 3 at (o, j) is w2 (up j, o),
    block 4 at (o, 0) is b2 (0, o).
-/
import proofs.«115793_g2000702438483467_pallasbulk_711_39_alg».proof.Proof.Gen.KernelIdeal.Frame
import proofs.«115793_g2000702438483467_pallasbulk_711_39_alg».proof.Proof.MlpSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.MlpSpec

variable (m : (ℓ : Loc nD τ sig) → Buf (Elt Ideal) ℓ)

/-! ## The arrays the host lines before the launch leave -/

theorem V_v0 (c : Dev nD) : (V m c main_v0 : S32x131072.Idx → EReal)
    = transpose S32x131072 [1, 0] (m ((c : Thread nD τ).loc main_arg0)) Facts₀.transposes_S131072x32_S32x131072_1_0 := by
  show StableHlo.after hostOps0 (fun b => m (c, b)) (Proc.devRef .tc main_v0) = _
  after_results

theorem V_v2 (c : Dev nD) : (V m c main_v2 : S112x32.Idx → EReal)
    = extractStridedSlice S112x32 ![0, 0] (transpose S128x32 [1, 0] (m ((c : Thread nD τ).loc main_arg1)) Facts₀.transposes_S32x128_S128x32_1_0)
        Facts₀.slices_S128x32_S112x32_0_0 := by
  show StableHlo.after hostOps0 (fun b => m (c, b)) (Proc.devRef .tc main_v2) = _
  after_results

theorem V_v4 (c : Dev nD) : (V m c main_v4 : S16x112.Idx → EReal)
    = extractStridedSlice S16x112 ![0, 0] (transpose S16x128 [1, 0] (m ((c : Thread nD τ).loc main_arg3)) Facts₀.transposes_S128x16_S16x128_1_0)
        Facts₀.slices_S16x128_S16x112_0_0 := by
  show StableHlo.after hostOps0 (fun b => m (c, b)) (Proc.devRef .tc main_v4) = _
  after_results

theorem V_v6 (c : Dev nD) : (V m c main_v6 : S112x1.Idx → EReal)
    = extractStridedSlice S112x1 ![0, 0] (transpose S128x1 [1, 0] (m ((c : Thread nD τ).loc main_arg2)) Facts₀.transposes_S1x128_S128x1_1_0)
        Facts₀.slices_S128x1_S112x1_0_0 := by
  show StableHlo.after hostOps0 (fun b => m (c, b)) (Proc.devRef .tc main_v6) = _
  after_results

theorem V_v7 (c : Dev nD) : (V m c main_v7 : S16x1.Idx → EReal)
    = transpose S16x1 [1, 0] (m ((c : Thread nD τ).loc main_arg4)) Facts₀.transposes_S1x16_S16x1_1_0 := by
  show StableHlo.after hostOps0 (fun b => m (c, b)) (Proc.devRef .tc main_v7) = _
  after_results

/-! ## The block indices over the four grid points -/

/-- Point `t` takes lane block `t` of the transposed input and of the output, and block (0, 0) of every other operand. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-! ## Each input block at an index -/

theorem iblk0_apply (c : Dev nD) (t : Fin cfg0.N) (k : Fin 32) (n : Fin 32768) (r : Fin 131072)
    (hr : r.val = t.val * 32768 + n.val) :
    (iblk m c 0 t : Vec Ideal S32x32768 .f32) (ix2 k n)
      = (m ((c : Thread nD τ).loc main_arg0) : S131072x32.Idx → EReal) (ix2 r k) := by
  obtain ⟨e0, e1, -⟩ := idx_facts t
  unfold iblk
  rw [View.read_apply]
  show V m c main_v0 (((cfg0.win 0).blk t).view.emb (ix2 k n)) = _
  have hi : ((cfg0.win 0).blk t).view.emb (ix2 k n) = (ix2 k r : S32x131072.Idx) := by
    funext a; apply Fin.ext
    match a with
    | ⟨0, _⟩ => show win0_0.index t (0 : Fin 2) * 32 + 1 * k.val = k.val; omega
    | ⟨1, _⟩ => show win0_0.index t (1 : Fin 2) * 32768 + 1 * n.val = r.val; omega
  rw [hi, V_v0, transpose_ix2_apply]

theorem iblk1_apply (c : Dev nD) (t : Fin cfg0.N) (j : Fin 112) (k : Fin 32) :
    (iblk m c 1 t : Vec Ideal S112x32 .f32) (ix2 j k)
      = (m ((c : Thread nD τ).loc main_arg1) : S32x128.Idx → EReal) (ix2 k (up j)) := by
  obtain ⟨-, -, e0, e1, -⟩ := idx_facts t
  unfold iblk
  rw [View.read_apply]
  show V m c main_v2 (((cfg0.win 1).blk t).view.emb (ix2 j k)) = _
  have hi : ((cfg0.win 1).blk t).view.emb (ix2 j k) = (ix2 j k : S112x32.Idx) := by
    funext a; apply Fin.ext
    match a with
    | ⟨0, _⟩ => show win0_1.index t (0 : Fin 2) * 112 + 1 * j.val = j.val; omega
    | ⟨1, _⟩ => show win0_1.index t (1 : Fin 2) * 32 + 1 * k.val = k.val; omega
  rw [hi, V_v2, slice2_axis0_apply 0 _ _ j k (up j) (Nat.zero_add _).symm, transpose_ix2_apply]

theorem iblk2_apply (c : Dev nD) (t : Fin cfg0.N) (j : Fin 112) :
    (iblk m c 2 t : Vec Ideal S112x1 .f32) (ix2 j (0 : Fin 1))
      = (m ((c : Thread nD τ).loc main_arg2) : S1x128.Idx → EReal) (ix2 (0 : Fin 1) (up j)) := by
  obtain ⟨-, -, -, -, e0, e1, -⟩ := idx_facts t
  unfold iblk
  rw [View.read_apply]
  show V m c main_v6 (((cfg0.win 2).blk t).view.emb (ix2 j (0 : Fin 1))) = _
  have hi : ((cfg0.win 2).blk t).view.emb (ix2 j (0 : Fin 1)) = (ix2 j (0 : Fin 1) : S112x1.Idx) := by
    funext a; apply Fin.ext
    match a with
    | ⟨0, _⟩ => show win0_2.index t (0 : Fin 2) * 112 + 1 * j.val = j.val; omega
    | ⟨1, _⟩ => show win0_2.index t (1 : Fin 2) * 1 + 1 * 0 = 0; omega
  rw [hi, V_v6, slice2_axis0_apply 0 _ _ j (0 : Fin 1) (up j) (Nat.zero_add _).symm, transpose_ix2_apply]

theorem iblk3_apply (c : Dev nD) (t : Fin cfg0.N) (o : Fin 16) (j : Fin 112) :
    (iblk m c 3 t : Vec Ideal S16x112 .f32) (ix2 o j)
      = (m ((c : Thread nD τ).loc main_arg3) : S128x16.Idx → EReal) (ix2 (up j) o) := by
  obtain ⟨-, -, -, -, -, -, e0, e1, -⟩ := idx_facts t
  unfold iblk
  rw [View.read_apply]
  show V m c main_v4 (((cfg0.win 3).blk t).view.emb (ix2 o j)) = _
  have hi : ((cfg0.win 3).blk t).view.emb (ix2 o j) = (ix2 o j : S16x112.Idx) := by
    funext a; apply Fin.ext
    match a with
    | ⟨0, _⟩ => show win0_3.index t (0 : Fin 2) * 16 + 1 * o.val = o.val; omega
    | ⟨1, _⟩ => show win0_3.index t (1 : Fin 2) * 112 + 1 * j.val = j.val; omega
  rw [hi, V_v4, slice2_axis1_apply 0 _ _ o j (up j) (Nat.zero_add _).symm, transpose_ix2_apply]

theorem iblk4_apply (c : Dev nD) (t : Fin cfg0.N) (o : Fin 16) :
    (iblk m c 4 t : Vec Ideal S16x1 .f32) (ix2 o (0 : Fin 1))
      = (m ((c : Thread nD τ).loc main_arg4) : S1x16.Idx → EReal) (ix2 (0 : Fin 1) o) := by
  obtain ⟨-, -, -, -, -, -, -, -, e0, e1, -⟩ := idx_facts t
  unfold iblk
  rw [View.read_apply]
  show V m c main_v7 (((cfg0.win 4).blk t).view.emb (ix2 o (0 : Fin 1))) = _
  have hi : ((cfg0.win 4).blk t).view.emb (ix2 o (0 : Fin 1)) = (ix2 o (0 : Fin 1) : S16x1.Idx) := by
    funext a; apply Fin.ext
    match a with
    | ⟨0, _⟩ => show win0_4.index t (0 : Fin 2) * 16 + 1 * o.val = o.val; omega
    | ⟨1, _⟩ => show win0_4.index t (1 : Fin 2) * 1 + 1 * 0 = 0; omega
  rw [hi, V_v7, transpose_ix2_apply]

end Cert.KernelIdeal.Hand

end
-- ==== Proof.KernelValue.lean ====
/-
  The transposed kernel's result. Point `t` of the four-point grid writes the lanes `32768 t … 32768 t + 32767` of the
  [16, 131072] launch result; what it writes is the block of one whole-array function, the transposed evaluation
  `MlpSpec.outT` of the argument arrays over the first 112 hidden units; the four blocks cover the array (lane `r` lies
  in block `r / 32768`). The host line after the launch transposes that array, so the program's result at `(r, o)` is
  `outT` at `(o, r)`.
-/
import proofs.«115793_g2000702438483467_pallasbulk_711_39_alg».proof.Proof.Gen.KernelIdeal.Frame
import proofs.«115793_g2000702438483467_pallasbulk_711_39_alg».proof.Proof.KernelPayload
import proofs.«115793_g2000702438483467_pallasbulk_711_39_alg».proof.Proof.KernelInputs
import proofs.«115793_g2000702438483467_pallasbulk_711_39_alg».proof.Proof.MlpSpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.MlpSpec

variable (m : (ℓ : Loc nD τ sig) → Buf (Elt Ideal) ℓ) (ρ : Dev nD → PrngReg)

theorem hz : (![0, 0] : Fin 2 → Nat) = fun _ => 0 := funext fun a => by fin_cases a <;> rfl

/-- The transposed evaluation of the argument arrays, as the contents of the launch's result array. -/
abbrev resultT (c : Dev nD) : Buf (Elt Ideal) ((c : Thread nD τ).loc main_v8) :=
  outT (m ((c : Thread nD τ).loc main_arg0)) (m ((c : Thread nD τ).loc main_arg1)) (m ((c : Thread nD τ).loc main_arg2))
    (m ((c : Thread nD τ).loc main_arg3)) (m ((c : Thread nD τ).loc main_arg4))

/-- Point `t` writes back lane block `t` of the transposed evaluation. -/
theorem flushed_eq (c : Dev nD) (t : Fin cfg0.N) :
    (dats m 0 c).flushed 5 t = ((cfg0.win 5).blk t).view.read (Elt Ideal) (resultT m c) := by
  show (cfg0.win 5).cut (grid0.coords t) ((dats m 0 c).after 5 t) = _
  rw [after0_5]
  unfold out0_5
  rw [View.canon_unit_zero hz]
  simp only [View.ld_unit_zero (S := S112x32) hz, View.ld_unit_zero (S := S32x32768) hz, View.ld_unit_zero (S := S112x1) hz,
    View.ld_unit_zero (S := S16x112) hz, View.ld_unit_zero (S := S16x1) hz]
  obtain ⟨-, -, -, -, -, -, -, -, -, -, e0, e1⟩ := idx_facts t
  funext y
  obtain ⟨o, n, rfl⟩ : ∃ (o : Fin 16) (n : Fin 32768), y = ix2 o n := ⟨y 0, y 1, eq_ix2 y⟩
  have hr : t.val * 32768 + n.val < 131072 := by
    have := t.isLt; have := n.isLt; have : cfg0.N = 4 := by decide
    omega
  have hi : ((cfg0.win 5).blk t).view.emb (ix2 o n) = (ix2 o ⟨t.val * 32768 + n.val, hr⟩ : S16x131072.Idx) := by
    funext a; apply Fin.ext
    match a with
    | ⟨0, _⟩ => show win0_5.index t (0 : Fin 2) * 16 + 1 * o.val = o.val; omega
    | ⟨1, _⟩ => show win0_5.index t (1 : Fin 2) * 32768 + 1 * n.val = t.val * 32768 + n.val; omega
  show k0_pay1 (iblk m c 1 t) (iblk m c 0 t) (iblk m c 2 t) (iblk m c 3 t) (iblk m c 4 t) (ix2 o n)
    = resultT m c (((cfg0.win 5).blk t).view.emb (ix2 o n))
  rw [hi]
  refine ((pay_apply _ _ _ _ _ o n).trans ?_).trans (outT_apply _ _ _ _ _ o ⟨t.val * 32768 + n.val, hr⟩).symm
  rw [iblk4_apply]
  refine congrArg (· + _) (Finset.sum_congr rfl fun j _ => ?_)
  rw [iblk3_apply, iblk2_apply]
  refine congrArg (fun s => _ * relu (s + _)) (Finset.sum_congr rfl fun k _ => ?_)
  rw [iblk1_apply, iblk0_apply m c t k n ⟨t.val * 32768 + n.val, hr⟩ rfl]

/-- An index of the launch's result array is in point `t`'s block iff each coordinate is in the block's range. -/
theorem mem_blk (t : Fin cfg0.N) (i : S16x131072.Idx) :
    i ∈ ((cfg0.win 5).blk t).view.set ↔ ∀ a : Fin 2, win0_5.index t a * S16x32768.size a ≤ (i a).val ∧ (i a).val < win0_5.index t a * S16x32768.size a + S16x32768.size a := by
  show i ∈ ((View.whole main_v8).slice (win0_5.rect t)).set ↔ _
  rw [View.set_slice_whole, Rect.mem_set_unit]
  exact Iff.rfl

/-- Every index of the launch's result array is in the block of the point its lane falls in. -/
theorem cover (i : S16x131072.Idx) : ∃ t : Fin cfg0.N, (cfg0.win 5).flush t = true ∧ i ∈ ((cfg0.win 5).blk t).view.set := by
  have h0 : (i 0).val < 16 := (i 0).isLt
  have h1 : (i 1).val < 131072 := (i 1).isLt
  have hN : cfg0.N = 4 := by decide
  let t : Fin cfg0.N := ⟨(i 1).val / 32768, by rw [hN]; omega⟩
  obtain ⟨-, -, -, -, -, -, -, -, -, -, e0, e1⟩ := idx_facts t
  refine ⟨t, flush0_5 t, ?_⟩
  rw [mem_blk]
  intro a
  have ht : t.val = (i 1).val / 32768 := rfl
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 32768 ≤ (i 1).val ∧ (i 1).val < win0_5.index t (1 : Fin 2) * 32768 + 32768; omega

/-- After the launch its result array is the transposed evaluation of the argument arrays. -/
theorem final (c : Dev nD) : (dats m 0 c).arrAt 5 cfg0.N = resultT m c :=
  (dats m 0 c).arrAt_eq_of_cover 5 (resultT m c) (fun t _ => flushed_eq m c t) cover

/-- The host line after the launch transposes the launch's result. -/
theorem tail_eq (c : Dev nD) :
    (Pipeline.afterTail₀ cfgs (dats m) 0 (V0 m) [hostOps1] c main_v9 : S131072x16.Idx → EReal)
      = transpose S131072x16 [1, 0] (resultT m c) Facts₀.transposes_S16x131072_S131072x16_1_0 := by
  unfold Pipeline.afterTail₀
  show StableHlo.after hostOps1 _ (Proc.devRef .tc main_v9) = _
  after_results
  exact congrArg (fun a => transpose S131072x16 [1, 0] a Facts₀.transposes_S16x131072_S131072x16_1_0)
    ((Pipeline.withArrays_arr spec0 launch0.win.arr_inj c _ _ 5).trans (final m c))

/-- The program's result at `(r, o)` is the transposed evaluation at `(o, r)`. -/
theorem tail_apply (c : Dev nD) (r : Fin 131072) (o : Fin 16) :
    (Pipeline.afterTail₀ cfgs (dats m) 0 (V0 m) [hostOps1] c main_v9 : S131072x16.Idx → EReal) (ix2 r o)
      = resultT m c (ix2 o r) := by
  rw [tail_eq, transpose_ix2_apply]

/-- The run, read: the program's result array at the transposed evaluation read transposed, the arguments unchanged. -/
theorem run : θ_run defs (onTc (τ := τ) (main (F := Ideal))) ⟨m, fun _ => 0, ρ⟩ fun r => ∀ c : Dev nD,
      r.2.mem ((c : Thread nD τ).loc main_v9) = Pipeline.afterTail₀ cfgs (dats m) 0 (V0 m) [hostOps1] c main_v9
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
      ⟨(h c).2 main_v9 (Pipeline.mem_restRefs_of main_v9 (by decide) (by decide)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.Hand

end
-- ==== Proof.ReferencePayload.lean ====
/-
  The row-tiled kernel's body at an index. The body multiplies a [1024, 32] block of input rows by the [32, 128]
  first-layer weights, adds the [1, 128] bias row down the rows, rectifies, multiplies by the [128, 16] second-layer
  weights and adds the [1, 16] bias row. Read at block row `p` and column `o` this is
    (∑ j < 128, relu ((∑ k < 32, a0 (p, k) · a1 (k, j)) + a2 (0, j)) · a3 (j, o)) + a4 (0, o).
-/
import proofs.«115793_g2000702438483467_pallasbulk_711_39_alg».proof.Proof.Gen.ReferenceIdeal.Skeleton
import proofs.«115793_g2000702438483467_pallasbulk_711_39_alg».proof.Proof.LibPlainDot
import proofs.«115793_g2000702438483467_pallasbulk_711_39_alg».proof.Proof.MlpSpec
import Idealize.ShloMosaic.Lib.Pipeline.Value
import Idealize.ShloMosaic.Lib.ValueIdx
import Idealize.ShloMosaic.Lib.ValueLayout

noncomputable section

namespace Cert.ReferenceIdeal.Hand

open Cert.ReferenceIdeal Cert.ReferenceIdeal.Gen Idealize.ShloMosaic Idealize.ShloMosaic.ValueIdx Cert.MlpSpec

/-- The two matrix products of the body have the dimension numbers of a plain product. -/
theorem dot1_plain : dot_S1024x32_S32x128_S1024x128_1_0_0_1_n_n = DotDims.plain 1024 32 128 := rfl
theorem dot2_plain : dot_S1024x128_S128x16_S1024x16_1_0_0_1_n_n = DotDims.plain 1024 128 16 := rfl

/-- The hidden block of the body at block row `p` and hidden unit `j`. -/
theorem hidden_apply (a0 : Vec Ideal S1024x32 .f32) (a1 : Vec Ideal S32x128 .f32) (a2 : Vec Ideal S1x128 .f32)
    (p : Fin 1024) (j : Fin 128) :
    (maximumf (addf (matmul (φ₁ := .f32) (φ₂ := .f32) dot_S1024x32_S32x128_S1024x128_1_0_0_1_n_n none a0 a1 (constant (F := Ideal) S1024x128 .f32 0x00000000#32))
        (broadcastTo S1024x128 a2 Facts₀.broadcasts_S1x128_S1024x128))
      (broadcast S1024x128 (Scalar.ofBits (F := Ideal) .f32 0x00000000#32)) : FVec Ideal S1024x128 .f32) (ix2 p j)
    = relu ((∑ k : Fin 32, a0 (ix2 p k) * a1 (ix2 k j)) + a2 (ix2 (0 : Fin 1) j)) := by
  rw [maximumf_apply, addf_apply, broadcast_apply, broadcastTo_1b_ab_apply, dot1_plain]
  refine congrArg (fun s => max (s + a2 (ix2 (0 : Fin 1) j)) _) ?_
  exact Cert.LibPlainDot.plain_matmul_apply (M := 1024) (K := 32) (N := 128) none a0 a1 (ix2 p j)

/-- The body's stored value at block row `p` and column `o`. -/
theorem pay_apply (a0 : Vec Ideal S1024x32 .f32) (a1 : Vec Ideal S32x128 .f32) (a2 : Vec Ideal S1x128 .f32)
    (a3 : Vec Ideal S128x16 .f32) (a4 : Vec Ideal S1x16 .f32) (p : Fin 1024) (o : Fin 16) :
    k0_pay1 a0 a1 a2 a3 a4 (ix2 p o)
      = (∑ j : Fin 128, relu ((∑ k : Fin 32, a0 (ix2 p k) * a1 (ix2 k j)) + a2 (ix2 (0 : Fin 1) j)) * a3 (ix2 j o))
        + a4 (ix2 (0 : Fin 1) o) := by
  unfold k0_pay1
  rw [addf_apply, broadcastTo_1b_ab_apply, dot2_plain]
  refine congrArg (· + a4 (ix2 (0 : Fin 1) o)) ?_
  refine (Cert.LibPlainDot.plain_matmul_apply (M := 1024) (K := 128) (N := 16) none _ a3 (ix2 p o)).trans ?_
  exact Finset.sum_congr rfl fun j _ => congrArg (· * a3 (ix2 j o)) (hidden_apply a0 a1 a2 p j)

end Cert.ReferenceIdeal.Hand

end
-- ==== Proof.ReferenceValue.lean ====
/-
  The row-tiled kernel's result array. The grid has 128 points; point `t` reads the rows `1024 t … 1024 t + 1023` of
  `x` and the whole of every other operand, and writes the same rows of the result. Each point's block is the block of
  one whole-array function — the perceptron's output `MlpSpec.out` of the argument arrays —, the 128 blocks cover the
  [131072, 16] array (row `r` lies in block `r / 1024`), so after the run the result array is that function.
-/
import proofs.«115793_g2000702438483467_pallasbulk_711_39_alg».proof.Proof.Gen.ReferenceIdeal.Frame
import proofs.«115793_g2000702438483467_pallasbulk_711_39_alg».proof.Proof.Gen.ReferenceIdeal.Value
import proofs.«115793_g2000702438483467_pallasbulk_711_39_alg».proof.Proof.ReferencePayload
import proofs.«115793_g2000702438483467_pallasbulk_711_39_alg».proof.Proof.MlpSpec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen Cert.ReferenceIdeal.Value Idealize.ShloMosaic.ValueIdx Cert.MlpSpec

variable (m : (ℓ : Loc nD τ sig) → Buf (Elt Ideal) ℓ) (ρ : Dev nD → PrngReg)

theorem hz : (![0, 0] : Fin 2 → Nat) = fun _ => 0 := funext fun a => by fin_cases a <;> rfl

/-- Point `t` takes row block `t` of the input and of the result, and block (0, 0) of every other operand. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The perceptron's output of the argument arrays, as the contents of the result array. -/
abbrev result (c : Dev nD) : Buf (Elt Ideal) ((c : Thread nD τ).loc main_v0) :=
  out (m ((c : Thread nD τ).loc main_arg0)) (m ((c : Thread nD τ).loc main_arg1)) (m ((c : Thread nD τ).loc main_arg2))
    (m ((c : Thread nD τ).loc main_arg3)) (m ((c : Thread nD τ).loc main_arg4))

/-! ## Each input block at an index -/

theorem iblk0_apply (c : Dev nD) (t : Fin cfg0.N) (p : Fin 1024) (k : Fin 32) (r : Fin 131072)
    (hr : r.val = t.val * 1024 + p.val) :
    (iblk m c 0 t : Vec Ideal S1024x32 .f32) (ix2 p k)
      = (m ((c : Thread nD τ).loc main_arg0) : S131072x32.Idx → EReal) (ix2 r k) := by
  obtain ⟨e0, e1, -⟩ := idx_facts t
  unfold iblk
  rw [View.read_apply]
  show m ((c : Thread nD τ).loc main_arg0) (((cfg0.win 0).blk t).view.emb (ix2 p k)) = _
  congr 1
  funext a; apply Fin.ext
  match a with
  | ⟨0, _⟩ => show win0_0.index t (0 : Fin 2) * 1024 + 1 * p.val = r.val; omega
  | ⟨1, _⟩ => show win0_0.index t (1 : Fin 2) * 32 + 1 * k.val = k.val; omega

theorem iblk1_apply (c : Dev nD) (t : Fin cfg0.N) (k : Fin 32) (j : Fin 128) :
    (iblk m c 1 t : Vec Ideal S32x128 .f32) (ix2 k j)
      = (m ((c : Thread nD τ).loc main_arg1) : S32x128.Idx → EReal) (ix2 k j) := by
  obtain ⟨-, -, e0, e1, -⟩ := idx_facts t
  unfold iblk
  rw [View.read_apply]
  show m ((c : Thread nD τ).loc main_arg1) (((cfg0.win 1).blk t).view.emb (ix2 k j)) = _
  congr 1
  funext a; apply Fin.ext
  match a with
  | ⟨0, _⟩ => show win0_1.index t (0 : Fin 2) * 32 + 1 * k.val = k.val; omega
  | ⟨1, _⟩ => show win0_1.index t (1 : Fin 2) * 128 + 1 * j.val = j.val; omega

theorem iblk2_apply (c : Dev nD) (t : Fin cfg0.N) (j : Fin 128) :
    (iblk m c 2 t : Vec Ideal S1x128 .f32) (ix2 (0 : Fin 1) j)
      = (m ((c : Thread nD τ).loc main_arg2) : S1x128.Idx → EReal) (ix2 (0 : Fin 1) j) := by
  obtain ⟨-, -, -, -, e0, e1, -⟩ := idx_facts t
  unfold iblk
  rw [View.read_apply]
  show m ((c : Thread nD τ).loc main_arg2) (((cfg0.win 2).blk t).view.emb (ix2 (0 : Fin 1) j)) = _
  congr 1
  funext a; apply Fin.ext
  match a with
  | ⟨0, _⟩ => show win0_2.index t (0 : Fin 2) * 1 + 1 * 0 = 0; omega
  | ⟨1, _⟩ => show win0_2.index t (1 : Fin 2) * 128 + 1 * j.val = j.val; omega

theorem iblk3_apply (c : Dev nD) (t : Fin cfg0.N) (j : Fin 128) (o : Fin 16) :
    (iblk m c 3 t : Vec Ideal S128x16 .f32) (ix2 j o)
      = (m ((c : Thread nD τ).loc main_arg3) : S128x16.Idx → EReal) (ix2 j o) := by
  obtain ⟨-, -, -, -, -, -, e0, e1, -⟩ := idx_facts t
  unfold iblk
  rw [View.read_apply]
  show m ((c : Thread nD τ).loc main_arg3) (((cfg0.win 3).blk t).view.emb (ix2 j o)) = _
  congr 1
  funext a; apply Fin.ext
  match a with
  | ⟨0, _⟩ => show win0_3.index t (0 : Fin 2) * 128 + 1 * j.val = j.val; omega
  | ⟨1, _⟩ => show win0_3.index t (1 : Fin 2) * 16 + 1 * o.val = o.val; omega

theorem iblk4_apply (c : Dev nD) (t : Fin cfg0.N) (o : Fin 16) :
    (iblk m c 4 t : Vec Ideal S1x16 .f32) (ix2 (0 : Fin 1) o)
      = (m ((c : Thread nD τ).loc main_arg4) : S1x16.Idx → EReal) (ix2 (0 : Fin 1) o) := by
  obtain ⟨-, -, -, -, -, -, -, -, e0, e1, -⟩ := idx_facts t
  unfold iblk
  rw [View.read_apply]
  show m ((c : Thread nD τ).loc main_arg4) (((cfg0.win 4).blk t).view.emb (ix2 (0 : Fin 1) o)) = _
  congr 1
  funext a; apply Fin.ext
  match a with
  | ⟨0, _⟩ => show win0_4.index t (0 : Fin 2) * 1 + 1 * 0 = 0; omega
  | ⟨1, _⟩ => show win0_4.index t (1 : Fin 2) * 16 + 1 * o.val = o.val; omega

/-! ## What a point writes back, the cover, the array after the run -/

/-- Point `t` writes back block `t` of the perceptron's output. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S1024x32) hz, View.ld_unit_zero (S := S32x128) hz, View.ld_unit_zero (S := S1x128) hz,
    View.ld_unit_zero (S := S128x16) hz, View.ld_unit_zero (S := S1x16) hz]
  obtain ⟨-, -, -, -, -, -, -, -, -, -, e0, e1⟩ := idx_facts t
  funext y
  obtain ⟨p, o, rfl⟩ : ∃ (p : Fin 1024) (o : Fin 16), y = ix2 p o := ⟨y 0, y 1, eq_ix2 y⟩
  have hr : t.val * 1024 + p.val < 131072 := by
    have := t.isLt; have := p.isLt; have : cfg0.N = 128 := by decide
    omega
  have hi : ((cfg0.win 5).blk t).view.emb (ix2 p o) = (ix2 ⟨t.val * 1024 + p.val, hr⟩ o : S131072x16.Idx) := by
    funext a; apply Fin.ext
    match a with
    | ⟨0, _⟩ => show win0_5.index t (0 : Fin 2) * 1024 + 1 * p.val = t.val * 1024 + p.val; omega
    | ⟨1, _⟩ => show win0_5.index t (1 : Fin 2) * 16 + 1 * o.val = o.val; omega
  show k0_pay1 (iblk m c 0 t) (iblk m c 1 t) (iblk m c 2 t) (iblk m c 3 t) (iblk m c 4 t) (ix2 p o)
    = result m c (((cfg0.win 5).blk t).view.emb (ix2 p o))
  rw [hi]
  refine (pay_apply _ _ _ _ _ p o).trans ?_
  show _ = (∑ j : Fin 128, hid _ _ _ ⟨t.val * 1024 + p.val, hr⟩ j * _) + _
  rw [iblk4_apply]
  refine congrArg (· + _) (Finset.sum_congr rfl fun j _ => ?_)
  rw [iblk3_apply, iblk2_apply]
  unfold hid
  refine congrArg (fun s => relu (s + _) * _) (Finset.sum_congr rfl fun k _ => ?_)
  rw [iblk1_apply, iblk0_apply m c t p k ⟨t.val * 1024 + p.val, hr⟩ rfl]

/-- An index of the result array is in point `t`'s block iff each coordinate is in the block's range on its axis. -/
theorem mem_blk (t : Fin cfg0.N) (i : S131072x16.Idx) :
    i ∈ ((cfg0.win 5).blk t).view.set ↔ ∀ a : Fin 2, win0_5.index t a * S1024x16.size a ≤ (i a).val ∧ (i a).val < win0_5.index t a * S1024x16.size a + S1024x16.size a := by
  show i ∈ ((View.whole main_v0).slice (win0_5.rect t)).set ↔ _
  rw [View.set_slice_whole, Rect.mem_set_unit]
  exact Iff.rfl

/-- Every index of the result array is in the block of the point its row falls in. -/
theorem cover (i : S131072x16.Idx) : ∃ t : Fin cfg0.N, (cfg0.win 5).flush t = true ∧ i ∈ ((cfg0.win 5).blk t).view.set := by
  have h0 : (i 0).val < 131072 := (i 0).isLt
  have h1 : (i 1).val < 16 := (i 1).isLt
  have hN : cfg0.N = 128 := by decide
  let t : Fin cfg0.N := ⟨(i 0).val / 1024, by rw [hN]; omega⟩
  obtain ⟨-, -, -, -, -, -, -, -, -, -, e0, e1⟩ := idx_facts t
  refine ⟨t, flush0_5 t, ?_⟩
  rw [mem_blk]
  intro a
  have ht : t.val = (i 0).val / 1024 := rfl
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 16 ≤ (i 1).val ∧ (i 1).val < win0_5.index t (1 : Fin 2) * 16 + 16; omega

/-- After the run the result array is the perceptron's output of the argument arrays. -/
theorem final (c : Dev nD) : (dats m 0 c).arrAt 5 cfg0.N = result m c :=
  (dats m 0 c).arrAt_eq_of_cover 5 (result m c) (fun t _ => flushed_eq m c t) cover

/-- The run, read: the result array at the perceptron's output, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.ReferenceIdeal.Hand

end
-- ==== Proof.lean ====
/-
  A two-layer perceptron evaluated two ways agrees on the extended reals.

  Both programs compute, for a batch row `r` and an output column `o`,
    out (r, o) = (∑ j, relu ((∑ k < 32, x (r, k) · w1 (k, j)) + b1 (0, j)) · w2 (j, o)) + b2 (0, o).
  The reference tiles the batch into 128 blocks of 1024 rows and sums over all 128 hidden units. The kernel works on
  transposed arrays — `w2ᵀ · relu (w1ᵀ · xᵀ + b1ᵀ) + b2ᵀ`, the batch cut into 4 blocks of 32768 lanes, the result
  transposed back — and keeps only the first 112 hidden units. The precondition says, beside finiteness, that the rows
  of `w2` from 100 on are zero: then every hidden unit from 112 on contributes `relu (…) · 0 = 0`, the two sums agree,
  and the remaining difference is the order of the factors in each product (`MlpSpec.outT_eq_out`). No law used needs
  finiteness: a product with zero is zero on the extended reals, and sums and products commute there.

  Each kernel's matrix product into a zero accumulator is the plain sum over its contracted axis; each program's
  result array is assembled from the blocks its grid points write (`KernelIdeal.Hand.run`, `ReferenceIdeal.Hand.run`).
  The three frames are the generated ones, and the idealization rewrote nothing.
-/
import proofs.«115793_g2000702438483467_pallasbulk_711_39_alg».proof.Defs
import proofs.«115793_g2000702438483467_pallasbulk_711_39_alg».proof.Proof.Gen.Kernel
import proofs.«115793_g2000702438483467_pallasbulk_711_39_alg».proof.Proof.Gen.Kernel.Frame
import proofs.«115793_g2000702438483467_pallasbulk_711_39_alg».proof.Proof.Gen.KernelIdeal
import proofs.«115793_g2000702438483467_pallasbulk_711_39_alg».proof.Proof.Gen.KernelIdeal.Frame
import proofs.«115793_g2000702438483467_pallasbulk_711_39_alg».proof.Proof.Gen.ReferenceIdeal
import proofs.«115793_g2000702438483467_pallasbulk_711_39_alg».proof.Proof.Gen.ReferenceIdeal.Frame
import proofs.«115793_g2000702438483467_pallasbulk_711_39_alg».proof.Proof.Gen.ReferenceIdeal.Value
import proofs.«115793_g2000702438483467_pallasbulk_711_39_alg».proof.Proof.Gen.Pre_finite_inputs
import proofs.«115793_g2000702438483467_pallasbulk_711_39_alg».proof.Proof.MlpSpec
import proofs.«115793_g2000702438483467_pallasbulk_711_39_alg».proof.Proof.PaddedRows
import proofs.«115793_g2000702438483467_pallasbulk_711_39_alg».proof.Proof.KernelValue
import proofs.«115793_g2000702438483467_pallasbulk_711_39_alg».proof.Proof.ReferenceValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealization rewrote no operation. -/
theorem preserves : Cert.preserves_Kernel_KernelIdeal := trivial

/-- From memories agreeing on the five arguments, both programs end with the perceptron's output of those arguments:
    the reference directly, the kernel through the transposed evaluation over 112 hidden units, which is the same
    function because the precondition makes the rows of `w2` from 100 on zero. -/
theorem algebraic : Cert.algebraic_KernelIdeal_ReferenceIdeal := by
  intro m ρ m' ρ' hpre hagree
  refine ⟨fun c => Cert.MlpSpec.out (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Hand.run m ρ)
    funext i
    obtain ⟨r', o, rfl⟩ : ∃ (r' : Fin 131072) (o : Fin 16), i = ix2 r' o := ⟨i 0, i 1, eq_ix2 i⟩
    rw [Cert.KernelIdeal.Hand.tail_apply]
    exact Cert.MlpSpec.outT_eq_out _ _ _ _ _
      (fun j hj o' => Cert.PaddedRows.padded_rows_zero _ _ _ _ _ (hpre c) j (by omega) o') r' o
  · refine (θ_run Cert.ReferenceIdeal.defs _ _).mono (fun r h c => ⟨(h c).1.trans ?_, (h c).2⟩)
      (Cert.ReferenceIdeal.Hand.run m' ρ')
    show Cert.MlpSpec.out _ _ _ _ _ = Cert.MlpSpec.out _ _ _ _ _
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
